-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32 : Shape := ⟨2, ![32, 32]⟩
abbrev S32x256x256 : Shape := ⟨3, ![32, 256, 256]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_

variable [Facts]

def fn {F : FTy → Type} [FloatOps F] (main_arg0 : FVec F S32x32 .f32) (main_arg1 : FVec F S32x256x256 .f32) : IVec S_ 1 :=
  let main_v0 : FVec F S32x32 .f32 := Host.absf main_arg0
  let main_cst : FVec F S_ .f32 := constant S_ .f32 0x7F800000#32
  let main_v1 : FVec F S32x32 .f32 := broadcastInDim S32x32 ![] bcast_S_S32x32 main_cst
  let main_v2 : IVec S32x32 1 := cmpf .olt main_v0 main_v1
  let main_c : IVec S_ 1 := constantI S_ 1 1#1
  let main_v3 : IVec S_ 1 := (fun x v => Host.reduce IntOp.andi x v reducesTo_S32x32_S_d0_1 h_S_) main_v2 main_c
  let main_v4 : FVec F S32x256x256 .f32 := Host.absf main_arg1
  let main_cst_0 : FVec F S_ .f32 := constant S_ .f32 0x7F800000#32
  let main_v5 : FVec F S32x256x256 .f32 := broadcastInDim S32x256x256 ![] bcast_S_S32x256x256 main_cst_0
  let main_v6 : IVec S32x256x256 1 := cmpf .olt main_v4 main_v5
  let main_c_1 : IVec S_ 1 := constantI S_ 1 1#1
  let main_v7 : IVec S_ 1 := (fun x v => Host.reduce IntOp.andi x v reducesTo_S32x256x256_S_d0_1_2 h_S_) main_v6 main_c_1
  let main_v8 : IVec S_ 1 := andi main_v3 main_v7
  main_v8
-- ==== Kernel.lean ====
abbrev S32x32 : Shape := ⟨2, ![32, 32]⟩
abbrev S32x256x256 : Shape := ⟨3, ![32, 256, 256]⟩
abbrev S32x16x256 : Shape := ⟨3, ![32, 16, 256]⟩
abbrev S32x1x256 : Shape := ⟨3, ![32, 1, 256]⟩
abbrev S32x256 : Shape := ⟨2, ![32, 256]⟩

abbrev nBuf : Space → Nat
  | .hbm => 3
  | .vmem => 5
  | .smem => 0
  | _ => 0

abbrev bufTy : (tb : Table) → Fin (tcTables nBuf tb) → BufTy
  | .hbm, ⟨0, _⟩ => ⟨S32x32, .f32⟩
  | .hbm, ⟨1, _⟩ => ⟨S32x256x256, .f32⟩
  | .hbm, ⟨2, _⟩ => ⟨S32x256x256, .f32⟩
  | .local _ .vmem, ⟨0, _⟩ => ⟨S32x32, .f32⟩
  | .local _ .vmem, ⟨1, _⟩ => ⟨S32x16x256, .f32⟩
  | .local _ .vmem, ⟨2, _⟩ => ⟨S32x16x256, .f32⟩
  | .local _ .vmem, ⟨3, _⟩ => ⟨S32x16x256, .f32⟩
  | .local _ .vmem, ⟨4, _⟩ => ⟨S32x16x256, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x32_S32x32_0_0 : ∀ a, (![0, 0] : Fin 2 → Nat) a + S32x32.size a ≤ S32x32.size a
  h_S32x32 : 0 < S32x32.numel
  inb_S32x16x256_S32x1x256_0_0_0 : ∀ a, (![0, 0, 0] : Fin 3 → Nat) a + S32x1x256.size a ≤ S32x16x256.size a
  h_S32x1x256 : 0 < S32x1x256.numel
  shapeCasts_S32x1x256_S32x256 : S32x1x256.ShapeCasts S32x256
  shapeCasts_S32x256_S32x1x256 : S32x256.ShapeCasts S32x1x256
  inb_S32x16x256_S32x1x256_0_1_0 : ∀ a, (![0, 1, 0] : Fin 3 → Nat) a + S32x1x256.size a ≤ S32x16x256.size a
  inb_S32x16x256_S32x1x256_0_2_0 : ∀ a, (![0, 2, 0] : Fin 3 → Nat) a + S32x1x256.size a ≤ S32x16x256.size a
  inb_S32x16x256_S32x1x256_0_3_0 : ∀ a, (![0, 3, 0] : Fin 3 → Nat) a + S32x1x256.size a ≤ S32x16x256.size a
  inb_S32x16x256_S32x1x256_0_4_0 : ∀ a, (![0, 4, 0] : Fin 3 → Nat) a + S32x1x256.size a ≤ S32x16x256.size a
  inb_S32x16x256_S32x1x256_0_5_0 : ∀ a, (![0, 5, 0] : Fin 3 → Nat) a + S32x1x256.size a ≤ S32x16x256.size a
  inb_S32x16x256_S32x1x256_0_6_0 : ∀ a, (![0, 6, 0] : Fin 3 → Nat) a + S32x1x256.size a ≤ S32x16x256.size a
  inb_S32x16x256_S32x1x256_0_7_0 : ∀ a, (![0, 7, 0] : Fin 3 → Nat) a + S32x1x256.size a ≤ S32x16x256.size a
  inb_S32x16x256_S32x1x256_0_8_0 : ∀ a, (![0, 8, 0] : Fin 3 → Nat) a + S32x1x256.size a ≤ S32x16x256.size a
  inb_S32x16x256_S32x1x256_0_9_0 : ∀ a, (![0, 9, 0] : Fin 3 → Nat) a + S32x1x256.size a ≤ S32x16x256.size a
  inb_S32x16x256_S32x1x256_0_10_0 : ∀ a, (![0, 10, 0] : Fin 3 → Nat) a + S32x1x256.size a ≤ S32x16x256.size a
  inb_S32x16x256_S32x1x256_0_11_0 : ∀ a, (![0, 11, 0] : Fin 3 → Nat) a + S32x1x256.size a ≤ S32x16x256.size a
  inb_S32x16x256_S32x1x256_0_12_0 : ∀ a, (![0, 12, 0] : Fin 3 → Nat) a + S32x1x256.size a ≤ S32x16x256.size a
  inb_S32x16x256_S32x1x256_0_13_0 : ∀ a, (![0, 13, 0] : Fin 3 → Nat) a + S32x1x256.size a ≤ S32x16x256.size a
  inb_S32x16x256_S32x1x256_0_14_0 : ∀ a, (![0, 14, 0] : Fin 3 → Nat) a + S32x1x256.size a ≤ S32x16x256.size a
  inb_S32x16x256_S32x1x256_0_15_0 : ∀ a, (![0, 15, 0] : Fin 3 → Nat) a + S32x1x256.size a ≤ S32x16x256.size a
  dot_S32x32_S32x256_S32x256_0_0_1_1_n_n_wf : DotDims.WF S32x32 S32x256 S32x256 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S32x32.size a
  hwx0_0 : ∀ i : grid0.Coords, EltTy.bits .f32 = 32 ∨ (Rect.block (s := S32x32) S32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16x256.size a ≤ S32x256x256.size a
  hwx0_1 : ∀ i : grid0.Coords, EltTy.bits .f32 = 32 ∨ (Rect.block (s := S32x256x256) S32x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16x256.size a ≤ S32x256x256.size a
  hwx0_2 : ∀ i : grid0.Coords, EltTy.bits .f32 = 32 ∨ (Rect.block (s := S32x256x256) S32x16x256.size (cc0_transform_2 i) (hinb0_2 i)).WholeWords (EltTy.packing .f32)

variable [Facts₀]

def dot_S32x32_S32x256_S32x256_0_0_1_1_n_n : DotDims S32x32 S32x256 S32x256 where
  lhsContracting := [0]
  rhsContracting := [0]
  lhsNonContracting := [1]
  rhsNonContracting := [1]
  lhsBatch := []
  rhsBatch := []
  wf := dot_S32x32_S32x256_S32x256_0_0_1_1_n_n_wf

abbrev win0_0 : Pipeline.Window sig grid0 :=
  Pipeline.Window.ofSpec (Memref.whole main_arg0) S32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x16x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x32 : Shape := ⟨2, ![32, 32]⟩
abbrev S32x256x256 : Shape := ⟨3, ![32, 256, 256]⟩
abbrev S32x32x1x1 : Shape := ⟨4, ![32, 32, 1, 1]⟩
abbrev S32x1x256x256 : Shape := ⟨4, ![32, 1, 256, 256]⟩
abbrev S32x32x256x256 : Shape := ⟨4, ![32, 32, 256, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S32x32, .f32⟩
  | .hbm, ⟨1, _⟩ => ⟨S32x256x256, .f32⟩
  | .hbm, ⟨2, _⟩ => ⟨S32x32x1x1, .f32⟩
  | .hbm, ⟨3, _⟩ => ⟨S32x1x256x256, .f32⟩
  | .hbm, ⟨4, _⟩ => ⟨S32x32x256x256, .f32⟩
  | .hbm, ⟨5, _⟩ => ⟨S32x32x256x256, .f32⟩
  | .hbm, ⟨6, _⟩ => ⟨S32x32x256x256, .f32⟩
  | .hbm, ⟨7, _⟩ => ⟨S_, .f32⟩
  | .hbm, ⟨8, _⟩ => ⟨S32x256x256, .f32⟩
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S32x32_S32x32x1x1_0_1 : S32x32.BroadcastsInDim S32x32x1x1 (![0, 1] : Fin 2 → Fin S32x32x1x1.rank)
  bcast_S32x256x256_S32x1x256x256_0_2_3 : S32x256x256.BroadcastsInDim S32x1x256x256 (![0, 2, 3] : Fin 3 → Fin S32x1x256x256.rank)
  bcast_S32x32x1x1_S32x32x256x256_0_1_2_3 : S32x32x1x1.BroadcastsInDim S32x32x256x256 (![0, 1, 2, 3] : Fin 4 → Fin S32x32x256x256.rank)
  bcast_S32x1x256x256_S32x32x256x256_0_1_2_3 : S32x1x256x256.BroadcastsInDim S32x32x256x256 (![0, 1, 2, 3] : Fin 4 → Fin S32x32x256x256.rank)
  reducesTo_S32x32x256x256_S32x256x256_d0 : S32x32x256x256.ReducesTo [0] S32x256x256
  h_S_ : 0 < S_.numel

variable [Facts₀]

class Facts : Prop extends Facts₀ where

variable [Facts]
-- ==== Proof.Superpose.lean ====
/-
  The specification. A bank of E matrices W[e, :, :] is superposed with weights sw[e, b]: member b of the result is the
  weighted sum over e of the bank's matrices,

      out (b, p, q) = Σ_e sw (e, b) · W (e, p, q),

  on the extended reals. Only addition and multiplication occur, each entry's sum is over the same finite index set on
  both sides of the certificate, and nothing is reassociated or distributed — so no entry needs to be finite.
  The middle extent P is a parameter: the same function describes the whole [B, 256, 256] result over the whole bank
  and one [B, 16, 256] slab of it over the matching slab of the bank.
-/
import Idealize.ShloMosaic.Lib.ValueIdx
import Idealize.ShloMosaic.PureOps.Ideal

open scoped BigOperators

namespace Idealize.ShloMosaic.ValueIdx

open Idealize.ShloMosaic

/-- Entry (b, p, q) of the superposition: the bank's entries (e, p, q) weighted by sw (e, b) and summed over e. -/
noncomputable def superposeEntry {E B P Q : ℕ} (sw : (⟨2, ![E, B]⟩ : Shape).Idx → EReal)
    (W : (⟨3, ![E, P, Q]⟩ : Shape).Idx → EReal) (b : Fin B) (p : Fin P) (q : Fin Q) : EReal :=
  ∑ e : Fin E, sw (ix2 e b) * W (ix3 e p q)

/-- The superposition as an array. -/
noncomputable def superpose {E B P Q : ℕ} (sw : (⟨2, ![E, B]⟩ : Shape).Idx → EReal)
    (W : (⟨3, ![E, P, Q]⟩ : Shape).Idx → EReal) : (⟨3, ![B, P, Q]⟩ : Shape).Idx → EReal :=
  fun i => superposeEntry sw W (i 0) (i 1) (i 2)

theorem superpose_ix3 {E B P Q : ℕ} (sw : (⟨2, ![E, B]⟩ : Shape).Idx → EReal)
    (W : (⟨3, ![E, P, Q]⟩ : Shape).Idx → EReal) (b : Fin B) (p : Fin P) (q : Fin Q) :
    superpose sw W (ix3 b p q) = ∑ e : Fin E, sw (ix2 e b) * W (ix3 e p q) := rfl

/-- Two superpositions agree at a pair of entries as soon as, for every e, the weights read there agree and the banks
    read there agree: an entry depends on the weights only through column b and on the bank only through its (p, q)
    entries. The two banks may have different numbers of rows. -/
theorem superpose_congr {E B P P' Q : ℕ} (sw sw' : (⟨2, ![E, B]⟩ : Shape).Idx → EReal)
    (W : (⟨3, ![E, P, Q]⟩ : Shape).Idx → EReal) (W' : (⟨3, ![E, P', Q]⟩ : Shape).Idx → EReal)
    (i : (⟨3, ![B, P, Q]⟩ : Shape).Idx) (i' : (⟨3, ![B, P', Q]⟩ : Shape).Idx)
    (hsw : ∀ e : Fin E, sw (ix2 e (i 0)) = sw' (ix2 e (i' 0)))
    (hW : ∀ e : Fin E, W (ix3 e (i 1) (i 2)) = W' (ix3 e (i' 1) (i' 2))) :
    superpose sw W i = superpose sw' W' i' := by
  show ∑ e : Fin E, sw (ix2 e (i 0)) * W (ix3 e (i 1) (i 2)) = ∑ e : Fin E, sw' (ix2 e (i' 0)) * W' (ix3 e (i' 1) (i' 2))
  exact Finset.sum_congr rfl fun e _ => by rw [hsw e, hW e]

end Idealize.ShloMosaic.ValueIdx
-- ==== Proof.RefValue.lean ====
/-
  The reference computes the superposition. It spreads the weights sw[e, b] over two trailing unit axes and then over the
  bank's two matrix axes, spreads the bank W[e, p, q] over a unit axis in second place and then over the members b,
  multiplies the two [E, B, P, Q] arrays entry by entry and sums over the leading axis e from zero. Read at (b, p, q):
  entry (e, b, p, q) of the first array is sw (e, b), of the second W (e, p, q), so the sum is
  0 + Σ_e sw (e, b) · W (e, p, q).
-/
import proofs.«120587_g14602888806852_cont_week2b_1353_3_alg».proof.Proof.Gen.ReferenceIdeal.Read
import proofs.«120587_g14602888806852_cont_week2b_1353_3_alg».proof.Proof.Superpose

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- Entry (e, b, p, q) of the spread weights is sw (e, b): the two trailing axes are read at their only position and
    then forgotten. -/
theorem weights_idx (b : Fin 32) (p q : Fin 256) (e : Fin 32) :
    idx_main_v0 (idx_main_v2 (idx_main_v5 (ix3 b p q) e)) = ix2 e b :=
  funext fun a => Fin.ext (by match a with | ⟨0, _⟩ => rfl | ⟨1, _⟩ => rfl)

/-- Entry (e, b, p, q) of the spread bank is W (e, p, q): the member axis b is read at the unit axis's only position and
    then forgotten. -/
theorem bank_idx (b : Fin 32) (p q : Fin 256) (e : Fin 32) :
    idx_main_v1 (idx_main_v3 (idx_main_v5 (ix3 b p q) e)) = ix3 e p q :=
  funext fun a => Fin.ext (by match a with | ⟨0, _⟩ => rfl | ⟨1, _⟩ => rfl | ⟨2, _⟩ => rfl)

/-- The reference's result is the superposition of the bank with the weights. -/
theorem result_eq (x0 : (⟨S32x32, .f32⟩ : BufTy).Contents (Elt Ideal)) (x1 : (⟨S32x256x256, .f32⟩ : BufTy).Contents (Elt Ideal)) :
    val_main_v5 (F := Ideal) x0 x1 = superpose x0 x1 := by
  funext i
  obtain ⟨b, p, q, rfl⟩ : ∃ (b : Fin 32) (p q : Fin 256), i = ix3 b p q := ⟨i 0, i 1, i 2, eq_ix3 i⟩
  rw [val_main_v5_apply, val_main_cst_apply, superpose_ix3]
  show Ideal.ofBits .f32 0x00000000#32 + _ = _
  rw [Ideal.ofBits_zero_f32, zero_add]
  refine Finset.sum_congr rfl fun e _ => ?_
  rw [val_main_v4_apply, val_main_v2_apply, val_main_v0_apply, val_main_v3_apply, val_main_v1_apply, weights_idx, bank_idx]
  rfl

end Cert.ReferenceIdeal.RefValue

end
-- ==== Proof.LibMiddleUnit.lean ====
/-
  A unit axis inserted in the middle of a matrix shape, read at coordinates: an [a, b] array cast to [a, 1, b]
  (a per-row family of vectors laid out as one-row matrices, as a bias table b[k, :] reshaped to [k, 1, :]) reads,
  at (k, u, q), the operand at (k, q) — both sit at row-major position k · b + q.
-/
import Idealize.ShloMosaic.Lib.ValueIdx
import Idealize.ShloMosaic.Lib.Pipeline.Value

namespace Idealize.ShloMosaic.ValueIdx

variable {α : Type}

/-- An [a, b] array cast to [a, 1, b] reads, at (k, u, q), the operand at (k, q). -/
theorem shapeCast_ab_a1b_apply {a b : ℕ} (x : (⟨2, ![a, b]⟩ : Shape).Idx → α)
    (h : (⟨2, ![a, b]⟩ : Shape).ShapeCasts ⟨3, ![a, 1, b]⟩) (k : Fin a) (u : Fin 1) (q : Fin b) :
    shapeCast ⟨3, ![a, 1, b]⟩ x h (ix3 k u q) = x (ix2 k q) :=
  shapeCast_apply x h _ _ (by
    have hu : u.val = 0 := by omega
    rw [Shape.rowMajor_val_two, Shape.rowMajor_val_three]
    show k.val * b + q.val = (k.val * 1 + u.val) * b + q.val
    rw [hu, Nat.mul_one, Nat.add_zero])

/-- An [a, 1, b] array cast back to [a, b] reads, at (k, q), the operand at (k, 0, q). -/
theorem shapeCast_a1b_ab_apply {a b : ℕ} (x : (⟨3, ![a, 1, b]⟩ : Shape).Idx → α)
    (h : (⟨3, ![a, 1, b]⟩ : Shape).ShapeCasts ⟨2, ![a, b]⟩) (k : Fin a) (q : Fin b) :
    shapeCast ⟨2, ![a, b]⟩ x h (ix2 k q) = x (ix3 k (0 : Fin 1) q) :=
  shapeCast_apply x h _ _ (by
    rw [Shape.rowMajor_val_three, Shape.rowMajor_val_two]
    show (k.val * 1 + 0) * b + q.val = k.val * b + q.val
    rw [Nat.mul_one, Nat.add_zero])

end Idealize.ShloMosaic.ValueIdx
-- ==== Proof.LibMatmulFirstAxes.lean ====
/-
  A matrix product that contracts the FIRST axis of both operands, read at coordinates. For a left operand [k, a] and
  a right operand [k, b] whose dimension numbers contract axis 0 of each, keep the remaining axis of each and have no
  batch axis, the entry (p, q) of the [a, b] product is the sum over the shared leading position j of
  lhs (j, p) · rhs (j, q): column p of the left operand against column q of the right — the product of the left
  operand's transpose with the right operand, without the transpose ever being formed. The matrix unit's product into
  a zero accumulator, and the host's dot product, are that sum on the extended reals.
-/
import Idealize.ShloMosaic.Lib.ValueIdx
import Idealize.ShloMosaic.PureOps.Ideal.Laws

open scoped BigOperators

namespace Idealize.ShloMosaic.ValueIdx

open Idealize.ShloMosaic

section FirstAxes

variable {k a b : ℕ} (d : DotDims ⟨2, ![k, a]⟩ ⟨2, ![k, b]⟩ ⟨2, ![a, b]⟩)

/-- One contracted axis. -/
theorem firstAxes_contr_rank (hl : d.lhsContracting = [0]) : d.contr.rank = 1 := by
  rw [d.rank_contr, hl]; rfl

/-- Its extent is the shared leading extent k. -/
theorem firstAxes_contr_size (hl : d.lhsContracting = [0]) :
    d.contr.size ⟨0, by rw [firstAxes_contr_rank d hl]; exact Nat.one_pos⟩ = k := by
  rw [d.size_contr 0 (by rw [hl]; exact Nat.one_pos), List.getElem_of_eq hl]
  rfl

/-- The contraction index is its one coordinate, a position along the shared leading axis. -/
noncomputable def firstAxesEquiv (hl : d.lhsContracting = [0]) : d.contr.Idx ≃ Fin k :=
  contrEquiv1 d k (firstAxes_contr_rank d hl) (firstAxes_contr_size d hl)

/-- A coordinate of a rank-2 index named by a position that is known to be 0 is its first coordinate. -/
private theorem ix2_at_zero {n0 n1 : ℕ} (p : Fin n0) (q : Fin n1) (n : ℕ) (hn : n < (⟨2, ![n0, n1]⟩ : Shape).rank)
    (h : n = 0) : ((ix2 p q) ⟨n, hn⟩).val = p.val := by subst h; rfl

/-- A coordinate of a rank-2 index named by a position that is known to be 1 is its second coordinate. -/
private theorem ix2_at_one {n0 n1 : ℕ} (p : Fin n0) (q : Fin n1) (n : ℕ) (hn : n < (⟨2, ![n0, n1]⟩ : Shape).rank)
    (h : n = 1) : ((ix2 p q) ⟨n, hn⟩).val = q.val := by subst h; rfl

/-- The left operand is read at shared position j, column p. -/
theorem firstAxes_lhsIdx (hl : d.lhsContracting = [0]) (hln : d.lhsNonContracting = [1]) (hlb : d.lhsBatch = [])
    (p : Fin a) (q : Fin b) (j : Fin k) :
    d.lhsIdx (ix2 p q) ((firstAxesEquiv d hl).symm j) = ix2 j p := by
  funext ax
  apply Fin.ext
  match ax with
  | ⟨0, _⟩ =>
    show (d.lhsIdx (ix2 p q) ((firstAxesEquiv d hl).symm j) (0 : Fin 2)).val = j.val
    rw [d.lhsIdx_val_of_single hl]
    exact contrEquiv1_symm_val d k (firstAxes_contr_rank d hl) (firstAxes_contr_size d hl) j
  | ⟨1, _⟩ =>
    have hnb : (1 : Fin 2) ∉ d.lhsBatch := by rw [hlb]; exact List.not_mem_nil
    have hn : (1 : Fin 2) ∈ d.lhsNonContracting := by rw [hln]; exact List.mem_singleton.mpr rfl
    show (d.lhsIdx (ix2 p q) ((firstAxesEquiv d hl).symm j) (1 : Fin 2)).val = p.val
    unfold DotDims.lhsIdx
    rw [dif_neg hnb, dif_pos hn]
    simp only [Fin.val_cast]
    exact ix2_at_zero p q _ _ (by simp [hlb, hln])

/-- The right operand is read at shared position j, column q. -/
theorem firstAxes_rhsIdx (hl : d.lhsContracting = [0]) (hr : d.rhsContracting = [0]) (hln : d.lhsNonContracting = [1])
    (hrn : d.rhsNonContracting = [1]) (hlb : d.lhsBatch = []) (hrb : d.rhsBatch = [])
    (p : Fin a) (q : Fin b) (j : Fin k) :
    d.rhsIdx (ix2 p q) ((firstAxesEquiv d hl).symm j) = ix2 j q := by
  funext ax
  apply Fin.ext
  match ax with
  | ⟨0, _⟩ =>
    show (d.rhsIdx (ix2 p q) ((firstAxesEquiv d hl).symm j) (0 : Fin 2)).val = j.val
    rw [d.rhsIdx_val_of_single hr]
    exact contrEquiv1_symm_val d k (firstAxes_contr_rank d hl) (firstAxes_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((firstAxesEquiv d hl).symm j) (1 : Fin 2)).val = q.val
    unfold DotDims.rhsIdx
    rw [dif_neg hnb, dif_pos hn]
    simp only [Fin.val_cast]
    exact ix2_at_one p q _ _ (by simp [hlb, hln, hrn])

variable {φ₁ φ₂ : FTy}

/-- The matrix unit's product into the zero accumulator, at (p, q). -/
theorem matmul_zero_firstAxes (hl : d.lhsContracting = [0]) (hr : d.rhsContracting = [0])
    (hln : d.lhsNonContracting = [1]) (hrn : d.rhsNonContracting = [1]) (hlb : d.lhsBatch = []) (hrb : d.rhsBatch = [])
    (prec : Option ContractPrecision) (lhs : FVec Ideal ⟨2, ![k, a]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 j p) * rhs (ix2 j q) := by
  rw [Ideal.matmul_constant_zero_apply, ← Equiv.sum_comp (firstAxesEquiv d hl).symm]
  refine Finset.sum_congr rfl fun j _ => ?_
  rw [firstAxes_lhsIdx d hl hln hlb p q j, firstAxes_rhsIdx d hl hr hln hrn hlb hrb p q j]

/-- The host's dot product, at (p, q). -/
theorem dotGeneral_firstAxes (hl : d.lhsContracting = [0]) (hr : d.rhsContracting = [0])
    (hln : d.lhsNonContracting = [1]) (hrn : d.rhsNonContracting = [1]) (hlb : d.lhsBatch = []) (hrb : d.rhsBatch = [])
    (prec : Option ContractPrecision) (sched : HostSchedule) (lhs : FVec Ideal ⟨2, ![k, a]⟩ φ₁)
    (rhs : FVec Ideal ⟨2, ![k, b]⟩ φ₂) (p : Fin a) (q : Fin b) :
    FloatOps.dotGeneral d prec sched lhs rhs (ix2 p q) = ∑ j : Fin k, lhs (ix2 j p) * rhs (ix2 j q) := by
  rw [Ideal.dotGeneral_apply, ← Equiv.sum_comp (firstAxesEquiv d hl).symm]
  refine Finset.sum_congr rfl fun j _ => ?_
  rw [firstAxes_lhsIdx d hl hln hlb p q j, firstAxes_rhsIdx d hl hr hln hrn hlb hrb p q j]

end FirstAxes

end Idealize.ShloMosaic.ValueIdx
-- ==== Proof.Slab.lean ====
/-
  One grid point of the kernel. The point holds the whole [32, 32] weight matrix sw and a [32, 16, 256] slab of the bank
  (sixteen consecutive rows p of every matrix of the bank). Its body runs sixteen identical steps, one per row p of
  the slab: take the [32, 1, 256] row-slab W[:, p, :], forget its unit axis, multiply it from the left by the transpose
  of sw on the matrix unit starting from zero — a [32, 256] matrix whose entry (b, q) is Σ_e sw (e, b) · W (e, p, q) —,
  put the unit axis back and store the result as row p of the [32, 16, 256] output slab. The sixteen stores tile the
  output slab, and each stores the superposition restricted to its row; so the output slab is the superposition of
  the bank's slab with the weights.
-/
import proofs.«120587_g14602888806852_cont_week2b_1353_3_alg».proof.Proof.Gen.KernelIdeal.Frame
import proofs.«120587_g14602888806852_cont_week2b_1353_3_alg».proof.Proof.LibMiddleUnit
import proofs.«120587_g14602888806852_cont_week2b_1353_3_alg».proof.Proof.LibMatmulFirstAxes
import proofs.«120587_g14602888806852_cont_week2b_1353_3_alg».proof.Proof.Superpose
import Idealize.ShloMosaic.Lib.Pipeline.Value

set_option maxRecDepth 16384

noncomputable section

open Idealize.ShloMosaic Idealize.ShloMosaic.TcCoe Idealize.SL.Sem

namespace Cert.KernelIdeal.Slab

open Cert.KernelIdeal Cert.KernelIdeal.Gen Idealize.ShloMosaic.ValueIdx

/-- One step's stored value, from the weights and one row-slab of the bank. -/
def rowProduct {F : FTy → Type} [FloatOps F] (sw : Vec F S32x32 .f32) (row : Vec F S32x1x256 .f32) : FVec F S32x1x256 .f32 :=
  shapeCast S32x1x256
    (matmul dot_S32x32_S32x256_S32x256_0_0_1_1_n_n none sw (shapeCast S32x256 row shapeCasts_S32x1x256_S32x256)
      (constant S32x256 .f32 0x00000000#32))
    shapeCasts_S32x256_S32x1x256

/-- Entry (b, ·, q) of a step's stored value: column b of the weights against column q of the row-slab. -/
theorem rowProduct_apply (sw : Vec Ideal S32x32 .f32) (row : Vec Ideal S32x1x256 .f32) (b : Fin 32) (u : Fin 1) (q : Fin 256) :
    rowProduct (F := Ideal) sw row (ix3 b u q) = ∑ e : Fin 32, sw (ix2 e b) * row (ix3 e (0 : Fin 1) q) := by
  unfold rowProduct
  rw [shapeCast_ab_a1b_apply]
  refine (matmul_zero_firstAxes dot_S32x32_S32x256_S32x256_0_0_1_1_n_n rfl rfl rfl rfl rfl rfl none sw _ b q).trans ?_
  refine Finset.sum_congr rfl fun e _ => ?_
  rw [shapeCast_a1b_ab_apply]

/-- The weights are loaded whole: the load's rectangle starts at (0, 0) and has the buffer's own extents. -/
theorem origin2 : (![0, 0] : Fin 2 → Nat) = fun _ => 0 := funext fun a => by fin_cases a <;> rfl

/-- A step's stored value, placed where its store puts it, is the superposition of the slab there. The row-slab is
    loaded through a unit-stride rectangle at offset (0, r, 0) with extents [32, 1, 256], and the store goes through the
    same rectangle: local entry (b, ·, q) of the rectangle is entry (b, r, q) of the slab, and the loaded row-slab's
    entry (e, 0, q) is the slab's entry (e, r, q). -/
theorem row_piece (off : Fin 3 → Nat) (inb : ∀ a, off a + S32x1x256.size a ≤ S32x16x256.size a)
    (h0 : off 0 = 0) (h2 : off 2 = 0) (sw : Vec Ideal S32x32 .f32) (slab : Vec Ideal S32x16x256 .f32)
    (b : Fin 32) (u : Fin 1) (q : Fin 256) :
    rowProduct (F := Ideal) sw (View.ld slab (Rect.unit (s := S32x16x256) off S32x1x256.size inb)) (ix3 b u q)
      = superpose sw slab ((Rect.unit (s := S32x16x256) off S32x1x256.size inb).emb (ix3 b u q)) := by
  rw [rowProduct_apply]
  show _ = ∑ e : Fin 32, sw (ix2 e _) * slab (ix3 e _ _)
  have hu : u.val = 0 := by omega
  refine Finset.sum_congr rfl fun e _ => ?_
  congr 1
  · refine congrArg sw (funext fun a => Fin.ext ?_)
    match a with
    | ⟨0, _⟩ => rfl
    | ⟨1, _⟩ => show b.val = off 0 + 1 * b.val; omega
  · show slab _ = slab _
    refine congrArg slab (funext fun a => Fin.ext ?_)
    match a with
    | ⟨0, _⟩ => show off 0 + 1 * e.val = e.val; omega
    | ⟨1, _⟩ => show off 1 + 1 * 0 = off 1 + 1 * u.val; omega
    | ⟨2, _⟩ => show off 2 + 1 * q.val = off 2 + 1 * q.val; rfl

/-- The output slab a grid point leaves: the superposition of the point's slab of the bank with the weights. -/
theorem out_eq (x0 : Vec Ideal S32x32 .f32) (x1 : Vec Ideal S32x16x256 .f32) :
    out0_2 (F := Ideal) x0 x1 = superpose x0 x1 := by
  funext y
  unfold out0_2
  simp only [View.ld_unit_zero (S := S32x32) origin2]
  refine View.canon_apply_of_pieces (Val := Elt Ideal) (superpose x0 x1) _ ?_ y (cover0_2 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl <;>
    (obtain ⟨b, u, q, rfl⟩ : ∃ (b : Fin 32) (u : Fin 1) (q : Fin 256), x = ix3 b u q := ⟨x 0, x 1, x 2, eq_ix3 x⟩
     exact row_piece _ _ rfl rfl x0 x1 b u q)

end Cert.KernelIdeal.Slab

end
-- ==== Proof.Whole.lean ====
/-
  From slabs to the whole result. The grid has sixteen points; point t holds the whole weight matrix, rows
  16·t … 16·t + 15 of every matrix of the bank, and writes back the same rows of every member of the result. What it
  writes back is the superposition of its slab of the bank (the slab module), and the superposition at an entry (b, p, q)
  reads the bank only at row p — so the superposition of a slab of rows is the same rows of the superposition of the
  whole bank. Every row p of the result lies in the slab of point p / 16, so the sixteen write-backs cover the result:
  after the run it is the superposition of the whole bank with the weights.
-/
import proofs.«120587_g14602888806852_cont_week2b_1353_3_alg».proof.Proof.Gen.KernelIdeal.Value
import proofs.«120587_g14602888806852_cont_week2b_1353_3_alg».proof.Proof.Slab

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

/-- Where the three windows sit at each of the sixteen points: the weights at block (0, 0); the bank and the result at
    block (0, r, 0) for the same r ≤ 15. -/
theorem where_blocks : ∀ t : Fin cfg0.N,
    win0_0.index t (0 : Fin 2) = 0 ∧ win0_0.index t (1 : Fin 2) = 0
    ∧ win0_1.index t (0 : Fin 3) = 0 ∧ win0_1.index t (1 : Fin 3) = win0_2.index t (1 : Fin 3) ∧ win0_1.index t (2 : Fin 3) = 0
    ∧ win0_2.index t (0 : Fin 3) = 0 ∧ win0_2.index t (1 : Fin 3) ≤ 15 ∧ win0_2.index t (2 : Fin 3) = 0 :=
  (by decide +kernel : ∀ t : Fin grid0.N, _)

/-- Every one of the sixteen row blocks of the result is some point's. -/
theorem every_block : ∀ r : Fin 16, ∃ t : Fin cfg0.N, win0_2.index t = ![0, r.val, 0] :=
  (by decide +kernel : ∀ r : Fin 16, ∃ t : Fin grid0.N, win0_2.index t = ![0, r.val, 0])

/-- The weights' block at any point is the weight matrix itself. -/
theorem weights_block (c : Dev nD) (t : Fin cfg0.N) (e b : Fin 32) :
    (iblk m c 0 t : Vec Ideal S32x32 .f32) (ix2 e b) = V m c main_arg0 (ix2 e b) := by
  obtain ⟨e0, e1, -⟩ := where_blocks t
  show V m c main_arg0 (((cfg0.win 0).blk t).view.emb (ix2 e b)) = V m c main_arg0 (ix2 e b)
  refine congrArg (V m c main_arg0) (funext fun a => Fin.ext ?_)
  match a with
  | ⟨0, _⟩ => show win0_0.index t (0 : Fin 2) * 32 + 1 * e.val = e.val; omega
  | ⟨1, _⟩ => show win0_0.index t (1 : Fin 2) * 32 + 1 * b.val = b.val; omega

/-- The bank's block at point t, at (e, p, q), is the bank at (e, 16·r + p, q), r the point's row block. -/
theorem bank_block (c : Dev nD) (t : Fin cfg0.N) (e : Fin 32) (p : Fin 16) (q : Fin 256) (i : S32x256x256.Idx)
    (h0 : (i 0).val = e.val) (h1 : (i 1).val = win0_2.index t (1 : Fin 3) * 16 + p.val) (h2 : (i 2).val = q.val) :
    (iblk m c 1 t : Vec Ideal S32x16x256 .f32) (ix3 e p q) = V m c main_arg1 i := by
  obtain ⟨-, -, e2, e3, e4, -⟩ := where_blocks t
  show V m c main_arg1 (((cfg0.win 1).blk t).view.emb (ix3 e p q)) = V m c main_arg1 i
  refine congrArg (V m c main_arg1) (funext fun a => Fin.ext ?_)
  match a with
  | ⟨0, _⟩ => show win0_1.index t (0 : Fin 3) * 32 + 1 * e.val = (i 0).val; omega
  | ⟨1, _⟩ => show win0_1.index t (1 : Fin 3) * 16 + 1 * p.val = (i 1).val; omega
  | ⟨2, _⟩ => show win0_1.index t (2 : Fin 3) * 256 + 1 * q.val = (i 2).val; omega

/-- What point t writes back is its block of the superposition of the whole bank. -/
theorem flushed_eq (c : Dev nD) (t : Fin cfg0.N) :
    (dats m 0 c).flushed 2 t
      = ((cfg0.win 2).blk t).view.read (Elt Ideal) (superpose (V m c main_arg0) (V m c main_arg1)) := by
  rw [flushed2]
  have hslab := Slab.out_eq (iblk m c 0 t) (iblk m c 1 t)
  obtain ⟨-, -, -, -, -, e5, -, e7⟩ := where_blocks t
  funext y
  show out0_2 (iblk m c 0 t) (iblk m c 1 t) y
    = superpose (V m c main_arg0) (V m c main_arg1) (((cfg0.win 2).blk t).view.emb y)
  rw [hslab]
  obtain ⟨b, p, q, rfl⟩ : ∃ (b : Fin 32) (p : Fin 16) (q : Fin 256), y = ix3 b p q := ⟨y 0, y 1, y 2, eq_ix3 y⟩
  refine superpose_congr _ _ _ _ _ _ (fun e => ?_) (fun e => ?_)
  · refine (weights_block m c t e b).trans (congrArg (V m c main_arg0) (funext fun a => Fin.ext ?_))
    match a with
    | ⟨0, _⟩ => rfl
    | ⟨1, _⟩ => show b.val = win0_2.index t (0 : Fin 3) * 32 + 1 * b.val; omega
  · refine bank_block m c t e p q _ rfl ?_ ?_
    · show win0_2.index t (1 : Fin 3) * 16 + 1 * p.val = win0_2.index t (1 : Fin 3) * 16 + p.val; omega
    · show win0_2.index t (2 : Fin 3) * 256 + 1 * q.val = q.val; omega

/-- An entry of the result lies in point t's block exactly when each coordinate lies in the block's range. -/
theorem mem_block (t : Fin cfg0.N) (i : S32x256x256.Idx) :
    i ∈ ((cfg0.win 2).blk t).view.set ↔ ∀ a : Fin 3, win0_2.index t a * S32x16x256.size a ≤ (i a).val
      ∧ (i a).val < win0_2.index t a * S32x16x256.size a + S32x16x256.size a := by
  show i ∈ ((View.whole main_v0).slice (win0_2.rect t)).set ↔ _
  rw [View.set_slice_whole, Rect.mem_set_unit]
  exact Iff.rfl

/-- Row p of the result lies in the block of the point whose row block is p / 16. -/
theorem covered (i : S32x256x256.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 256 := (i 2).isLt
  obtain ⟨t, ht⟩ := every_block ⟨(i 1).val / 16, by omega⟩
  have q0 : win0_2.index t (0 : Fin 3) = 0 := congrFun ht 0
  have q1 : win0_2.index t (1 : Fin 3) = (i 1).val / 16 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 16 ≤ (i 1).val ∧ (i 1).val < win0_2.index t (1 : Fin 3) * 16 + 16; omega
  | ⟨2, _⟩ => show win0_2.index t (2 : Fin 3) * 256 ≤ (i 2).val ∧ (i 2).val < win0_2.index t (2 : Fin 3) * 256 + 256; omega

/-- The result array after the run: the superposition of the bank with the weights, as launched. -/
theorem final (c : Dev nD) :
    (dats m 0 c).arrAt 2 cfg0.N
      = superpose (m ((c : Thread nD τ).loc main_arg0)) (m ((c : Thread nD τ).loc main_arg1)) :=
  (dats m 0 c).arrAt_eq_of_cover 2 (superpose (V m c main_arg0) (V m c main_arg1))
    (fun t _ => flushed_eq m c t) covered

/-- The kernel's run, read: the result at the superposition, the arguments unchanged. -/
theorem run : θ_run defs (onTc (τ := τ) (main (F := Ideal))) ⟨m, fun _ => 0, ρ⟩ fun r => ∀ c : Dev nD,
      r.2.mem ((c : Thread nD τ).loc main_v0)
        = superpose (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.lean ====
/-
  A bank of 32 matrices W[e, :, :] (each 256 × 256) is superposed with a 32 × 32 weight matrix sw: member b of the result
  is Σ_e sw (e, b) · W (e, :, :).

  The kernel walks the bank's rows in sixteen slabs of sixteen rows. At each slab it holds the whole weight matrix and,
  row by row, multiplies the [32, 256] row-slab W[:, p, :] from the left by the transpose of sw on the matrix unit,
  starting from zero: entry (b, q) of the product is Σ_e sw (e, b) · W (e, p, q), stored as row p of every member b.
  The reference spreads sw and W to [32, 32, 256, 256], multiplies entry by entry and sums over the leading axis from
  zero: entry (b, p, q) is 0 + Σ_e sw (e, b) · W (e, p, q).

  On the extended reals both are the same finite sum of the same products in the same order of factors; the matrix
  unit's zero accumulator and the host sum's zero start add nothing. No sum is regrouped and no factor is moved across
  a sum, so the equality holds at every extended real and the finiteness of the inputs is not used.

  The modules: Superpose (the function above), RefValue (the reference computes it), Slab (one grid point leaves the
  superposition of its slab), Whole (the sixteen slabs make up the whole result), and two general lemma files: a unit
  axis in the middle of a matrix shape read at coordinates, and a matrix product contracting the first axis of both
  operands read at coordinates. The idealization rewrote nothing, so the idealized kernel is the kernel's own text
  read on the extended reals.
-/
import proofs.«120587_g14602888806852_cont_week2b_1353_3_alg».proof.Defs
import proofs.«120587_g14602888806852_cont_week2b_1353_3_alg».proof.Proof.Gen.Kernel
import proofs.«120587_g14602888806852_cont_week2b_1353_3_alg».proof.Proof.Gen.Kernel.Skeleton
import proofs.«120587_g14602888806852_cont_week2b_1353_3_alg».proof.Proof.Gen.Kernel.Launch
import proofs.«120587_g14602888806852_cont_week2b_1353_3_alg».proof.Proof.Gen.Kernel.Points
import proofs.«120587_g14602888806852_cont_week2b_1353_3_alg».proof.Proof.Gen.Kernel.Frame
import proofs.«120587_g14602888806852_cont_week2b_1353_3_alg».proof.Proof.Gen.KernelIdeal
import proofs.«120587_g14602888806852_cont_week2b_1353_3_alg».proof.Proof.Gen.KernelIdeal.Skeleton
import proofs.«120587_g14602888806852_cont_week2b_1353_3_alg».proof.Proof.Gen.KernelIdeal.Launch
import proofs.«120587_g14602888806852_cont_week2b_1353_3_alg».proof.Proof.Gen.KernelIdeal.Points
import proofs.«120587_g14602888806852_cont_week2b_1353_3_alg».proof.Proof.Gen.KernelIdeal.Frame
import proofs.«120587_g14602888806852_cont_week2b_1353_3_alg».proof.Proof.Gen.ReferenceIdeal
import proofs.«120587_g14602888806852_cont_week2b_1353_3_alg».proof.Proof.Gen.Pre_finite_inputs
import proofs.«120587_g14602888806852_cont_week2b_1353_3_alg».proof.Proof.Gen.KernelIdeal.Value
import proofs.«120587_g14602888806852_cont_week2b_1353_3_alg».proof.Proof.Gen.ReferenceIdeal.Run
import proofs.«120587_g14602888806852_cont_week2b_1353_3_alg».proof.Proof.Gen.ReferenceIdeal.Read
import proofs.«120587_g14602888806852_cont_week2b_1353_3_alg».proof.Proof.RefValue
import proofs.«120587_g14602888806852_cont_week2b_1353_3_alg».proof.Proof.Whole
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: it runs, and its arguments are never written. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the weights and the bank, the kernel's result and the reference's are both the
    superposition of the bank with the weights. -/
theorem algebraic : Cert.algebraic_KernelIdeal_ReferenceIdeal := by
  intro m ρ m' ρ' _ hagree
  refine ⟨fun c => superpose (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
